-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096x128 : Shape := ⟨2, ![4096, 128]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4096x128 : S_.BroadcastsInDim S4096x128 (![] : Fin 0 → Fin S4096x128.rank)
  reducesTo_S4096x128_S_d0_1 : S4096x128.ReducesTo [0, 1] S_

variable [Facts]

def fn {F : FTy → Type} [FloatOps F] (main_arg0 : FVec F S4096x256 .f32) (main_arg1 : FVec F S4096x256 .f32) (main_arg2 : FVec F S4096x128 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S4096x128 .f32 := Host.absf main_arg2
  let main_cst_2 : FVec F S_ .f32 := constant S_ .f32 0x7F800000#32
  let main_v10 : FVec F S4096x128 .f32 := broadcastInDim S4096x128 ![] bcast_S_S4096x128 main_cst_2
  let main_v11 : IVec S4096x128 1 := cmpf .olt main_v9 main_v10
  let main_c_3 : IVec S_ 1 := constantI S_ 1 1#1
  let main_v12 : IVec S_ 1 := (fun x v => Host.reduce IntOp.andi x v reducesTo_S4096x128_S_d0_1 h_S_) main_v11 main_c_3
  let main_v13 : IVec S_ 1 := andi main_v8 main_v12
  main_v13
-- ==== Kernel.lean ====
abbrev S4096x256 : Shape := ⟨2, ![4096, 256]⟩
abbrev S4096x128 : Shape := ⟨2, ![4096, 128]⟩
abbrev S4096x384 : Shape := ⟨2, ![4096, 384]⟩
abbrev S2048x256 : Shape := ⟨2, ![2048, 256]⟩
abbrev S2048x128 : Shape := ⟨2, ![2048, 128]⟩
abbrev S2048x384 : Shape := ⟨2, ![2048, 384]⟩
abbrev S2048 : Shape := ⟨1, ![2048]⟩
abbrev S2048x1 : Shape := ⟨2, ![2048, 1]⟩

abbrev nBuf : Space → Nat
  | .hbm => 4
  | .vmem => 8
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x128, .f32⟩
  | .hbm, ⟨3, _⟩ => ⟨S4096x384, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x128, .f32⟩
  | .local _ .vmem, ⟨5, _⟩ => ⟨S2048x128, .f32⟩
  | .local _ .vmem, ⟨6, _⟩ => ⟨S2048x384, .f32⟩
  | .local _ .vmem, ⟨7, _⟩ => ⟨S2048x384, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S2048x256_S2048x256_0_0 : ∀ a, (![0, 0] : Fin 2 → Nat) a + S2048x256.size a ≤ S2048x256.size a
  h_S2048x256 : 0 < S2048x256.numel
  reduces_S2048x256_S2048 : S2048x256.Reduces [1] S2048
  shapeCasts_S2048_S2048x1 : S2048.ShapeCasts S2048x1
  broadcasts_S2048x1_S2048x256 : S2048x1.Broadcasts S2048x256
  inb_S2048x384_S2048x256_0_0 : ∀ a, (![0, 0] : Fin 2 → Nat) a + S2048x256.size a ≤ S2048x384.size a
  inb_S2048x128_S2048x128_0_0 : ∀ a, (![0, 0] : Fin 2 → Nat) a + S2048x128.size a ≤ S2048x128.size a
  h_S2048x128 : 0 < S2048x128.numel
  inb_S2048x384_S2048x128_0_256 : ∀ a, (![0, 256] : Fin 2 → Nat) a + S2048x128.size a ≤ S2048x384.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S4096x256.size a
  hwx0_0 : ∀ i : grid0.Coords, EltTy.bits .f32 = 32 ∨ (Rect.block (s := S4096x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S4096x256.size a
  hwx0_1 : ∀ i : grid0.Coords, EltTy.bits .f32 = 32 ∨ (Rect.block (s := S4096x256) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S4096x128.size a
  hwx0_2 : ∀ i : grid0.Coords, EltTy.bits .f32 = 32 ∨ (Rect.block (s := S4096x128) S2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x384.size a ≤ S4096x384.size a
  hwx0_3 : ∀ i : grid0.Coords, EltTy.bits .f32 = 32 ∨ (Rect.block (s := S4096x384) S2048x384.size (cc0_transform_3 i) (hinb0_3 i)).WholeWords (EltTy.packing .f32)

variable [Facts₀]

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2048x384.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x256 : Shape := ⟨2, ![4096, 256]⟩
abbrev S4096x128 : Shape := ⟨2, ![4096, 128]⟩
abbrev S_ : Shape := ⟨0, ![]⟩
abbrev S4096 : Shape := ⟨1, ![4096]⟩
abbrev S4096x1 : Shape := ⟨2, ![4096, 1]⟩
abbrev S4096x384 : Shape := ⟨2, ![4096, 384]⟩

abbrev nBuf : Space → Nat
  | .hbm => 18
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x128, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x256, .f32⟩
  | .hbm, ⟨11, _⟩ => ⟨S4096x256, .i1⟩
  | .hbm, ⟨12, _⟩ => ⟨S4096x256, .f32⟩
  | .hbm, ⟨13, _⟩ => ⟨S4096x256, .f32⟩
  | .hbm, ⟨14, _⟩ => ⟨S4096x256, .f32⟩
  | .hbm, ⟨15, _⟩ => ⟨S4096x256, .f32⟩
  | .hbm, ⟨16, _⟩ => ⟨S4096x256, .f32⟩
  | .hbm, ⟨17, _⟩ => ⟨S4096x384, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]

class Facts₀ : Prop where
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S_S4096x256 : S_.BroadcastsInDim S4096x256 (![] : Fin 0 → Fin S4096x256.rank)
  bcast_S4096x1_S4096x256_0_1 : S4096x1.BroadcastsInDim S4096x256 (![0, 1] : Fin 2 → Fin S4096x256.rank)
  concatenates_S4096x256_S4096x128_S4096x384_d1 : Shape.Concatenates [S4096x256, S4096x128] S4096x384 1

variable [Facts₀]

class Facts : Prop extends Facts₀ where

variable [Facts]
-- ==== Proof.Imports.lean ====
/-
  The generated value leg of the idealized kernel and the generated run and read-at-an-index lemmas of the idealized
  reference, gathered in one place.
-/
import proofs.«126249_g10926396801967_feedfinal_217_13_alg».proof.Defs
import proofs.«126249_g10926396801967_feedfinal_217_13_alg».proof.Proof.Gen.KernelIdeal.Value
import proofs.«126249_g10926396801967_feedfinal_217_13_alg».proof.Proof.Gen.ReferenceIdeal.Run
import proofs.«126249_g10926396801967_feedfinal_217_13_alg».proof.Proof.Gen.ReferenceIdeal.Read
-- ==== Proof.RowExtremes.lean ====
/-
  The mathematics of the pairwise maximum, free of any program.

  For a row `b` of 256 extended reals write `rowMax b` for its largest and `rowMin b` for its smallest entry (folds of
  `max` from −∞ and of `min` from +∞). The largest of the 256 products `a · b j` is `a · rowMax b` when `a ≥ 0` and
  `a · rowMin b` when `a < 0`; since `rowMin b ≤ rowMax b`, multiplication by a nonnegative number keeps the order of the
  two products and multiplication by a negative one reverses it, so in both cases that largest product is the larger
  of `a · rowMax b` and `a · rowMin b`. This holds on all of the extended reals: multiplication by a fixed
  nonnegative extended real is monotone, infinities included, so no entry has to be finite.

  `entry a b d c` is the result row at column `c` of 384: the pairwise maximum of `a` against `b` on the first 256
  columns, the row `d` of 128 copied behind them.
-/
import Idealize.ShloMosaic.PureOps.Ideal.Laws
import Idealize.ShloMosaic.Lib.ValueIdx
import Mathlib.Data.EReal.Inv
import Mathlib.Data.Finset.Fold

noncomputable section

namespace Cert.PairwiseMax

open Idealize.ShloMosaic Idealize.ShloMosaic.ValueIdx

/-- The largest entry of a row of 256, folded from the value of the word `0xFF800000` (−∞). -/
def rowMax (b : Fin 256 → EReal) : EReal :=
  (Finset.univ : Finset (Fin 256)).fold max (Ideal.ofBits .f32 0xFF800000#32) b

/-- The smallest entry of a row of 256, folded from the value of the word `0x7F800000` (+∞). -/
def rowMin (b : Fin 256 → EReal) : EReal :=
  (Finset.univ : Finset (Fin 256)).fold min (Ideal.ofBits .f32 0x7F800000#32) b

/-- The smallest entry is at most the largest: both are compared with entry 0. -/
theorem rowMin_le_rowMax (b : Fin 256 → EReal) : rowMin b ≤ rowMax b :=
  ((Finset.fold_min_le (b 0)).2 (Or.inr ⟨0, Finset.mem_univ _, le_rfl⟩)).trans
    ((Finset.le_fold_max (b 0)).2 (Or.inr ⟨0, Finset.mem_univ _, le_rfl⟩))

/-- For `lo ≤ hi`: the larger of `a · hi` and `a · lo` is `a · hi` when `0 ≤ a` and `a · lo` otherwise. -/
theorem max_mul_mul (a lo hi : EReal) (h : lo ≤ hi) :
    max (a * hi) (a * lo) = if 0 ≤ a then a * hi else a * lo := by
  split
  · next ha => exact max_eq_left (mul_le_mul_of_nonneg_left h ha)
  · next ha =>
    have ha' : 0 ≤ -a := by
      rw [← neg_zero, EReal.neg_le_neg_iff]; exact (not_le.1 ha).le
    have hm : -a * lo ≤ -a * hi := mul_le_mul_of_nonneg_left h ha'
    rw [EReal.neg_mul, EReal.neg_mul, EReal.neg_le_neg_iff] at hm
    exact max_eq_right hm

/-- The result row at column `c`: on the first 256 columns the larger of `a c · rowMax b` and `a c · rowMin b`, behind
    them the row `d`. -/
def entry (a b : Fin 256 → EReal) (d : Fin 128 → EReal) (c : Fin 384) : EReal :=
  if h : c.val < 256 then max (a ⟨c.val, h⟩ * rowMax b) (a ⟨c.val, h⟩ * rowMin b)
  else d ⟨c.val - 256, by have := c.isLt; omega⟩

/-- The same entry with the comparison `0 ≤ a c` choosing the product, as a `where` spells it. -/
theorem entry_eq_ite (a b : Fin 256 → EReal) (d : Fin 128 → EReal) (c : Fin 384) :
    entry a b d c = if h : c.val < 256 then (if 0 ≤ a ⟨c.val, h⟩ then a ⟨c.val, h⟩ * rowMax b else a ⟨c.val, h⟩ * rowMin b)
      else d ⟨c.val - 256, by have := c.isLt; omega⟩ := by
  unfold entry
  split
  · exact max_mul_mul _ _ _ (rowMin_le_rowMax b)
  · rfl

/-- The whole result of `n` rows: row `r` is `entry` of the rows `r` of the three arguments. -/
def result {n : ℕ} (x0 x1 : (⟨2, ![n, 256]⟩ : Shape).Idx → EReal) (x2 : (⟨2, ![n, 128]⟩ : Shape).Idx → EReal) :
    (⟨2, ![n, 384]⟩ : Shape).Idx → EReal :=
  fun i => entry (fun k => x0 (ix2 (i 0) k)) (fun k => x1 (ix2 (i 0) k)) (fun k => x2 (ix2 (i 0) k)) (i 1)

theorem result_apply {n : ℕ} (x0 x1 : (⟨2, ![n, 256]⟩ : Shape).Idx → EReal) (x2 : (⟨2, ![n, 128]⟩ : Shape).Idx → EReal)
    (r : Fin n) (c : Fin 384) :
    result x0 x1 x2 (ix2 r c) = entry (fun k => x0 (ix2 r k)) (fun k => x1 (ix2 r k)) (fun k => x2 (ix2 r k)) c := rfl

/-- Row `p` of one triple of arrays and row `r` of another, holding the same entries, give the same result row. -/
theorem result_rows {n n' : ℕ} (X0 X1 : (⟨2, ![n, 256]⟩ : Shape).Idx → EReal) (X2 : (⟨2, ![n, 128]⟩ : Shape).Idx → EReal)
    (b0 b1 : (⟨2, ![n', 256]⟩ : Shape).Idx → EReal) (b2 : (⟨2, ![n', 128]⟩ : Shape).Idx → EReal) (p : Fin n') (r : Fin n)
    (h0 : ∀ k, b0 (ix2 p k) = X0 (ix2 r k)) (h1 : ∀ k, b1 (ix2 p k) = X1 (ix2 r k)) (h2 : ∀ k, b2 (ix2 p k) = X2 (ix2 r k))
    (q : Fin 384) : result b0 b1 b2 (ix2 p q) = result X0 X1 X2 (ix2 r q) := by
  rw [result_apply, result_apply, funext h0, funext h1, funext h2]

end Cert.PairwiseMax

end
-- ==== Proof.LibRowFold.lean ====
/-
  A reduction along the LAST axis of an `[n, K]` array, read at row `r`, as a fold over the row's `K` entries named by
  their coordinates `(r, k)` — for the maximum and the minimum, on the vector unit (`vector.multi_reduction`) and on
  the host (a one-operand `stablehlo.reduce`), at the exact extended-real values, for any extents.

    * `lift_row`: the source index over row `r` with coordinate `k` on the reduced axis is `(r, k)`.
    * `multiReduction_max_row` / `multiReduction_min_row`: the vector unit's row maximum / minimum at row `r` is the
      fold of `max` / `min` from the accumulator word's value over `k ↦ src (r, k)`.
    * `hostReduce_max_row` / `hostReduce_min_row`: the host's reduce with a maximum / minimum body likewise, from the
      initial value's one element.
  Both sides of a comparison between a kernel's row extreme and a reference's then meet in one `Finset.fold`.
-/
import Idealize.ShloMosaic.PureOps.Ideal.Laws
import Idealize.ShloMosaic.Lib.ValueIdx

noncomputable section

namespace Cert.Lib.RowFold

open Idealize.ShloMosaic Idealize.ShloMosaic.ValueIdx

variable {n K : ℕ} {φ : FTy}

/-- Over row `r`, the source index whose coordinate on the reduced (last) axis is `k` is `(r, k)`. -/
theorem lift_row (h : Shape.Reduces ⟨2, ![n, K]⟩ [1] ⟨1, ![n]⟩) (r : Fin n) (k : Fin K) :
    h.lift (ix1 r) k = ix2 r k := by
  funext c
  apply Fin.ext
  match c with
  | ⟨0, _⟩ => rfl
  | ⟨1, _⟩ => rfl

/-- The source along row `r`, as the fold's function. -/
theorem comp_lift_row {α : Type} (src : (⟨2, ![n, K]⟩ : Shape).Idx → α) (h : Shape.Reduces ⟨2, ![n, K]⟩ [1] ⟨1, ![n]⟩) (r : Fin n) :
    (src ∘ h.lift (ix1 r)) = fun k : Fin K => src (ix2 r k) :=
  funext fun k => congrArg src (lift_row h r k)

/-- A `vector.multi_reduction <maximumf>` along the last axis, at row `r`: the largest of the accumulator's value and
    the row's entries. -/
theorem multiReduction_max_row (src : FVec Ideal ⟨2, ![n, K]⟩ φ) (acc : BitVec φ.bits)
    (h : Shape.Reduces ⟨2, ![n, K]⟩ [1] ⟨1, ![n]⟩) (hφ : FKind.Formats φ) (hacc : acc = FKind.maximumf.neutral φ hφ) (r : Fin n) :
    multiReduction .maximumf [1] ⟨1, ![n]⟩ src acc h hφ hacc (ix1 r)
      = (Finset.univ : Finset (Fin K)).fold max (Ideal.ofBits φ acc) (fun k => src (ix2 r k)) := by
  refine (Ideal.multiReduction_maximumf_single src acc h hφ hacc (ix1 r)).trans ?_
  rw [comp_lift_row src h r]
  rfl

/-- A `vector.multi_reduction <minimumf>` along the last axis, at row `r`: the smallest of the accumulator's value and
    the row's entries. -/
theorem multiReduction_min_row (src : FVec Ideal ⟨2, ![n, K]⟩ φ) (acc : BitVec φ.bits)
    (h : Shape.Reduces ⟨2, ![n, K]⟩ [1] ⟨1, ![n]⟩) (hφ : FKind.Formats φ) (hacc : acc = FKind.minimumf.neutral φ hφ) (r : Fin n) :
    multiReduction .minimumf [1] ⟨1, ![n]⟩ src acc h hφ hacc (ix1 r)
      = (Finset.univ : Finset (Fin K)).fold min (Ideal.ofBits φ acc) (fun k => src (ix2 r k)) := by
  refine (multiReduction_minimumf_eq_fold src acc h hφ hacc (ix1 r)).trans ?_
  refine (h.fold_filter_drop_single _ _ src (ix1 r)).trans ?_
  rw [comp_lift_row src h r]
  rfl

/-- The host's reduce with a maximum body along the last axis, at row `r`: the largest of the initial value and the
    row's entries. -/
theorem hostReduce_max_row {u : Shape} (x : (⟨2, ![n, K]⟩ : Shape).Idx → Ideal φ) (init : u.Idx → Ideal φ)
    (h' : Shape.ReducesTo ⟨2, ![n, K]⟩ [1] ⟨1, ![n]⟩) (h : Shape.Reduces ⟨2, ![n, K]⟩ [1] ⟨1, ![n]⟩) (hu : 0 < u.numel) (r : Fin n) :
    Host.reduce (FloatOps.maximumf (F := Ideal) (φ := φ)) x init h' hu (ix1 r)
      = (Finset.univ : Finset (Fin K)).fold max (init (Shape.Idx.first hu)) (fun k => x (ix2 r k)) := by
  refine (Host.reduce_eq_fold_single _ x init h' h hu (ix1 r)).trans ?_
  rw [comp_lift_row x h r]
  rfl

/-- The host's reduce with a minimum body along the last axis, at row `r`: the smallest of the initial value and the
    row's entries. -/
theorem hostReduce_min_row {u : Shape} (x : (⟨2, ![n, K]⟩ : Shape).Idx → Ideal φ) (init : u.Idx → Ideal φ)
    (h' : Shape.ReducesTo ⟨2, ![n, K]⟩ [1] ⟨1, ![n]⟩) (h : Shape.Reduces ⟨2, ![n, K]⟩ [1] ⟨1, ![n]⟩) (hu : 0 < u.numel) (r : Fin n) :
    Host.reduce (FloatOps.minimumf (F := Ideal) (φ := φ)) x init h' hu (ix1 r)
      = (Finset.univ : Finset (Fin K)).fold min (init (Shape.Idx.first hu)) (fun k => x (ix2 r k)) := by
  refine (Host.reduce_eq_fold_single _ x init h' h hu (ix1 r)).trans ?_
  rw [comp_lift_row x h r]
  rfl

end Cert.Lib.RowFold

end
-- ==== Proof.RefIsResult.lean ====
/-
  The reference computes `result`.

  Read at an index `(r, c)` of the [4096, 384] output, the reference's last operation is a concatenation along the
  columns: for `c < 256` it reads the `where` — the comparison `x0[r, c] ≥ 0` choosing between `x0[r, c] · max_k x1[r, k]`
  and `x0[r, c] · min_k x1[r, k]`, the two row extremes taken by the host's reduce from −∞ and +∞ and carried to the
  entry through a column broadcast —, for `c ≥ 256` it reads `x2[r, c − 256]`. That is `entry` in its `if 0 ≤ a` form.
-/
import proofs.«126249_g10926396801967_feedfinal_217_13_alg».proof.Proof.Gen.ReferenceIdeal.Read
import proofs.«126249_g10926396801967_feedfinal_217_13_alg».proof.Proof.RowExtremes
import proofs.«126249_g10926396801967_feedfinal_217_13_alg».proof.Proof.LibRowFold

noncomputable section

namespace Cert.ReferenceIdeal.RefValue

open Cert.ReferenceIdeal Cert.ReferenceIdeal.Gen Cert.ReferenceIdeal.Read
open Idealize.ShloMosaic Idealize.ShloMosaic.ValueIdx Cert.PairwiseMax

/-- The reduced shape of a row reduction of the [4096, 256] argument. -/
theorem reduces_rows : Shape.Reduces S4096x256 [1] S4096 := by decide

/-- The host's row maximum at row `r` is `rowMax` of the row. -/
theorem rowmax_apply (x1 : FVec Ideal S4096x256 .f32) (r : Fin 4096) :
    val_main_v0 (F := Ideal) x1 (ix1 r) = rowMax (fun k => x1 (ix2 r k)) :=
  Cert.Lib.RowFold.hostReduce_max_row x1 (val_main_cst (F := Ideal)) reducesTo_S4096x256_S4096_d1 reduces_rows h_S_ r

/-- The host's row minimum at row `r` is `rowMin` of the row. -/
theorem rowmin_apply (x1 : FVec Ideal S4096x256 .f32) (r : Fin 4096) :
    val_main_v2 (F := Ideal) x1 (ix1 r) = rowMin (fun k => x1 (ix2 r k)) :=
  Cert.Lib.RowFold.hostReduce_min_row x1 (val_main_cst_0 (F := Ideal)) reducesTo_S4096x256_S4096_d1 reduces_rows h_S_ r

/-- A comparison `a ≥ 0` on the extended reals choosing between two values. -/
theorem select_oge_zero (a u v : EReal) :
    Scalar.select (FloatOps.cmpf (F := Ideal) (φ := .f32) .oge a (FloatOps.ofBits (F := Ideal) .f32 0x00000000#32)) u v
      = if 0 ≤ a then u else v := by
  have hz : (FloatOps.ofBits (F := Ideal) .f32 0x00000000#32 : EReal) = 0 := Ideal.ofBits_zero_f32
  rw [Ideal.cmpf_def, hz]
  by_cases h : (0 : EReal) ≤ a
  · rw [if_pos h]
    show Scalar.select (BitVec.ofBool (decide (0 ≤ a))) u v = u
    rw [decide_eq_true h]; exact select_one u v
  · rw [if_neg h]
    show Scalar.select (BitVec.ofBool (decide (0 ≤ a))) u v = v
    rw [decide_eq_false h]; exact select_zero u v

/-- The `where` at `(r, q)`: the comparison of `x0[r, q]` with zero choosing between its products with the row's
    largest and smallest entries. -/
theorem where_apply (x0 x1 : FVec Ideal S4096x256 .f32) (r : Fin 4096) (q : Fin 256) :
    val_main_v10 (F := Ideal) x0 x1 (ix2 r q)
      = if 0 ≤ x0 (ix2 r q) then x0 (ix2 r q) * rowMax (fun k => x1 (ix2 r k)) else x0 (ix2 r q) * rowMin (fun k => x1 (ix2 r k)) := by
  have e6 : idx_main_v1 (idx_main_v6 (ix2 r q)) = ix1 r := funext fun a => Fin.ext (by match a with | ⟨0, _⟩ => rfl)
  have e8 : idx_main_v3 (idx_main_v8 (ix2 r q)) = ix1 r := funext fun a => Fin.ext (by match a with | ⟨0, _⟩ => rfl)
  rw [val_main_v10_apply, val_main_v5_apply, val_main_v7_apply, val_main_v9_apply, val_main_v6_apply, val_main_v8_apply,
    val_main_v1_apply, val_main_v3_apply, val_main_v4_apply, val_main_cst_1_apply, e6, e8, rowmax_apply, rowmin_apply]
  exact select_oge_zero _ _ _

/-- The reference's result is `result` of its three arguments. -/
theorem ref_eq_result (x0 x1 : FVec Ideal S4096x256 .f32) (x2 : FVec Ideal S4096x128 .f32) :
    val_main_v11 (F := Ideal) x0 x1 x2 = result x0 x1 x2 := by
  funext i
  obtain ⟨r, c, rfl⟩ : ∃ (r : Fin 4096) (c : Fin 384), i = ix2 r c := ⟨i 0, i 1, eq_ix2 i⟩
  rw [result_apply, entry_eq_ite]
  unfold val_main_v11
  by_cases h : c.val < 256
  · rw [dif_pos h]
    refine (concatenate_pair_apply_left (1 : Fin 2) (val_main_v10 (F := Ideal) x0 x1) x2
      concatenates_S4096x256_S4096x128_S4096x384_d1 (ix2 r c) rfl (ix2 r ⟨c.val, h⟩) (fun b => ?_)).trans ?_
    · match b with
      | ⟨0, _⟩ => rfl
      | ⟨1, _⟩ => rfl
    · exact where_apply x0 x1 r ⟨c.val, h⟩
  · rw [dif_neg h]
    refine concatenate_pair_apply_right (1 : Fin 2) (val_main_v10 (F := Ideal) x0 x1) x2
      concatenates_S4096x256_S4096x128_S4096x384_d1 (ix2 r c) rfl rfl (ix2 r ⟨c.val - 256, by have := c.isLt; omega⟩) (fun b hb => ?_) ?_
    · match b with
      | ⟨0, _⟩ => rfl
      | ⟨1, _⟩ => exact absurd rfl hb
    · show c.val - 256 + 256 = c.val
      omega

end Cert.ReferenceIdeal.RefValue

end
-- ==== Proof.LibKeepdimsColumn.lean ====
/-
  The keepdims COLUMN forms of two layout operations, read at an index given by coordinates: what a sum over the last
  axis with the reduced axis kept (a column of per-row values) needs when the column is built from a vector and then
  spread over the columns of a matrix.
    * `shapeCast_a_a1_apply`: an `[a]` vector cast to an `[a, 1]` column reads, at `(i, u)`, the vector at `i`.
    * `broadcastTo_a1_ab_apply`: an `[a, 1]` column broadcast to `[a, b]` reads, at `(i, c)`, the column at `(i, 0)`.
  Both are the library's general read-at-an-index lemmas with the coordinate arithmetic done once, for any extents.
-/
import Idealize.ShloMosaic.Lib.Pipeline.Value
import Idealize.ShloMosaic.Lib.ValueIdx

namespace Cert.Lib.KeepdimsColumn

open Idealize.ShloMosaic Idealize.ShloMosaic.ValueIdx

variable {α : Type}

/-- An `[a]` vector cast to an `[a, 1]` column reads, at `(i, u)`, the vector at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, c)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

end Cert.Lib.KeepdimsColumn
-- ==== Proof.KernelBlock.lean ====
/-
  What the kernel's body leaves in its [2048, 384] output block, as one function of its three input blocks.

  The body stores twice: the computed [2048, 256] piece — entry `(p, q)` is the larger of `a[p, q] · max_k b[p, k]` and
  `a[p, q] · min_k b[p, k]`, the row extremes taken along the lanes from −∞ and +∞, cast to a column and broadcast
  back over the 256 columns — at columns 0 … 255, and the third input block copied at columns 256 … 383. Each piece
  is the restriction of `result a b d` (at 2048 rows) to its rectangle, and the two rectangles cover the block; so
  the block is `result a b d`.
-/
import proofs.«126249_g10926396801967_feedfinal_217_13_alg».proof.Proof.Gen.KernelIdeal.Value
import proofs.«126249_g10926396801967_feedfinal_217_13_alg».proof.Proof.RowExtremes
import proofs.«126249_g10926396801967_feedfinal_217_13_alg».proof.Proof.LibRowFold
import proofs.«126249_g10926396801967_feedfinal_217_13_alg».proof.Proof.LibKeepdimsColumn
import Idealize.ShloMosaic.Lib.Pipeline.Value
import Idealize.ShloMosaic.Lib.Tactic

noncomputable section

namespace Cert.KernelIdeal.Hand

open Cert.KernelIdeal Cert.KernelIdeal.Gen
open Idealize.ShloMosaic Idealize.ShloMosaic.TcCoe Idealize.SL.Sem Idealize.ShloMosaic.ValueIdx Cert.PairwiseMax

theorem hz : (![0, 0] : Fin 2 → Nat) = fun _ => 0 := funext fun a => by fin_cases a <;> rfl

/-- The row maximum of `b`, cast to a column and broadcast over the columns, at `(p, q)`: `rowMax` of row `p`. -/
theorem col_max (b : FVec Ideal S2048x256 .f32) (p : Fin 2048) (q : Fin 256) :
    broadcastTo S2048x256 (shapeCast S2048x1 (multiReduction (F := Ideal) .maximumf [1] S2048 b 0xFF800000#32 reduces_S2048x256_S2048 (.inl rfl) rfl)
      shapeCasts_S2048_S2048x1) broadcasts_S2048x1_S2048x256 (ix2 p q) = rowMax (fun k => b (ix2 p k)) :=
  (Cert.Lib.KeepdimsColumn.broadcastTo_a1_ab_apply _ broadcasts_S2048x1_S2048x256 p q).trans
    ((Cert.Lib.KeepdimsColumn.shapeCast_a_a1_apply _ shapeCasts_S2048_S2048x1 p 0).trans
      (Cert.Lib.RowFold.multiReduction_max_row b 0xFF800000#32 reduces_S2048x256_S2048 (.inl rfl) rfl p))

/-- The row minimum of `b`, cast to a column and broadcast over the columns, at `(p, q)`: `rowMin` of row `p`. -/
theorem col_min (b : FVec Ideal S2048x256 .f32) (p : Fin 2048) (q : Fin 256) :
    broadcastTo S2048x256 (shapeCast S2048x1 (multiReduction (F := Ideal) .minimumf [1] S2048 b 0x7F800000#32 reduces_S2048x256_S2048 (.inl rfl) rfl)
      shapeCasts_S2048_S2048x1) broadcasts_S2048x1_S2048x256 (ix2 p q) = rowMin (fun k => b (ix2 p k)) :=
  (Cert.Lib.KeepdimsColumn.broadcastTo_a1_ab_apply _ broadcasts_S2048x1_S2048x256 p q).trans
    ((Cert.Lib.KeepdimsColumn.shapeCast_a_a1_apply _ shapeCasts_S2048_S2048x1 p 0).trans
      (Cert.Lib.RowFold.multiReduction_min_row b 0x7F800000#32 reduces_S2048x256_S2048 (.inl rfl) rfl p))

/-- The computed piece at `(p, q)`: the larger of `a[p, q]` times the largest and times the smallest entry of row `p` of `b`. -/
theorem pay_apply (a b : FVec Ideal S2048x256 .f32) (p : Fin 2048) (q : Fin 256) :
    k0_pay1 (F := Ideal) a b (ix2 p q)
      = max (a (ix2 p q) * rowMax (fun k => b (ix2 p k))) (a (ix2 p q) * rowMin (fun k => b (ix2 p k))) := by
  unfold k0_pay1
  exact congrArg₂ max (congrArg (a (ix2 p q) * ·) (col_max b p q)) (congrArg (a (ix2 p q) * ·) (col_min b p q))

/-- The computed piece, stored at columns 0 … 255, is `result` on its rectangle. -/
theorem computed_piece (arg1 : Memref sig .tc .vmem S2048x256 .f32) (harg1 : arg1.IsWhole) (arg2 : Memref sig .tc .vmem S2048x256 .f32) (harg2 : arg2.IsWhole)
    (x0 x1 : Vec Ideal S2048x256 .f32) (x2 : Vec Ideal S2048x128 .f32) (x : (⟨2, ![2048, 256]⟩ : Shape).Idx) :
    k0_pay1 (F := Ideal) (View.readAt (Elt Ideal) arg1.view (Rect.unit (s := S2048x256) ![0, 0] S2048x256.size inb_S2048x256_S2048x256_0_0).toLoadRect (harg1.unread x0))
        (View.readAt (Elt Ideal) arg2.view (Rect.unit (s := S2048x256) ![0, 0] S2048x256.size inb_S2048x256_S2048x256_0_0).toLoadRect (harg2.unread x1)) x
      = result (n := 2048) x0 x1 x2 ((Rect.unit (s := S2048x384) ![0, 0] S2048x256.size inb_S2048x384_S2048x256_0_0).emb x) := by
  simp only [View.readAt_eq_ld, harg1.read_unread, harg2.read_unread, View.ld_unit_zero (S := S2048x256) hz]
  obtain ⟨p, q, rfl⟩ : ∃ (p : Fin 2048) (q : Fin 256), x = ix2 p q := ⟨x 0, x 1, eq_ix2 x⟩
  have e : (Rect.unit (s := S2048x384) ![0, 0] S2048x256.size inb_S2048x384_S2048x256_0_0).emb (ix2 p q)
      = ix2 p (⟨q.val, by have := q.isLt; omega⟩ : Fin 384) := by
    funext ax; apply Fin.ext
    match ax with
    | ⟨0, _⟩ => show 0 + 1 * p.val = p.val; omega
    | ⟨1, _⟩ => show 0 + 1 * q.val = q.val; omega
  rw [e, result_apply, pay_apply]
  unfold entry
  rw [dif_pos (show q.val < 256 from q.isLt)]

/-- The copied piece, stored at columns 256 … 383, is `result` on its rectangle. -/
theorem copied_piece (arg3 : Memref sig .tc .vmem S2048x128 .f32) (harg3 : arg3.IsWhole)
    (x0 x1 : Vec Ideal S2048x256 .f32) (x2 : Vec Ideal S2048x128 .f32) (x : (⟨2, ![2048, 128]⟩ : Shape).Idx) :
    View.readAt (Elt Ideal) arg3.view (Rect.unit (s := S2048x128) ![0, 0] S2048x128.size inb_S2048x128_S2048x128_0_0).toLoadRect (harg3.unread x2) x
      = result (n := 2048) x0 x1 x2 ((Rect.unit (s := S2048x384) ![0, 256] S2048x128.size inb_S2048x384_S2048x128_0_256).emb x) := by
  have hl : View.readAt (Elt Ideal) arg3.view (Rect.unit (s := S2048x128) ![0, 0] S2048x128.size inb_S2048x128_S2048x128_0_0).toLoadRect (harg3.unread x2) = x2 := by
    simp only [View.readAt_eq_ld, harg3.read_unread, View.ld_unit_zero (S := S2048x128) hz]
  rw [hl]
  obtain ⟨p, q, rfl⟩ : ∃ (p : Fin 2048) (q : Fin 128), x = ix2 p q := ⟨x 0, x 1, eq_ix2 x⟩
  have e : (Rect.unit (s := S2048x384) ![0, 256] S2048x128.size inb_S2048x384_S2048x128_0_256).emb (ix2 p q)
      = ix2 p (⟨256 + q.val, by have := q.isLt; omega⟩ : Fin 384) := by
    funext ax; apply Fin.ext
    match ax with
    | ⟨0, _⟩ => show 0 + 1 * p.val = p.val; omega
    | ⟨1, _⟩ => show 256 + 1 * q.val = 256 + q.val; omega
  rw [e, result_apply]
  unfold entry
  rw [dif_neg (show ¬ (256 + q.val < 256) by omega)]
  refine congrArg (fun k => x2 (ix2 p k)) (Fin.ext ?_)
  show q.val = 256 + q.val - 256
  omega

/-- THE BLOCK: what the body leaves in the output's staging buffer is `result` (at 2048 rows) of its input blocks. -/
theorem out_eq (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S2048x128 .f32) (harg3 : arg3.IsWhole) (arg4 : Memref sig .tc .vmem S2048x384 .f32) (harg4 : arg4.IsWhole)
    (x0 x1 : Vec Ideal S2048x256 .f32) (x2 : Vec Ideal S2048x128 .f32) :
    out0_A_3 c i arg1 harg1 arg2 harg2 arg3 harg3 arg4 harg4 x0 x1 x2 = result (n := 2048) x0 x1 x2 := by
  unfold out0_A_3
  rw [View.read_writes_junk_eq_canon]
  funext y
  refine View.canon_apply_of_pieces (result (n := 2048) x0 x1 x2) _ ?_ y
    (cover0_A_3 c i arg1 harg1 arg2 harg2 arg3 harg3 arg4 harg4 x0 x1 x2 y)
  unfold kernelRun0_A
  dsimp only
  intro pc hpc x
  simp only [List.mem_cons, List.not_mem_nil, or_false] at hpc
  rcases hpc with rfl | rfl
  · exact copied_piece arg3 harg3 x0 x1 x2 x
  · exact computed_piece arg1 harg1 arg2 harg2 x0 x1 x2 x

end Cert.KernelIdeal.Hand

end
-- ==== Proof.KernelArray.lean ====
/-
  From blocks to the array: the kernel's [4096, 384] result after the run is `result` of its three argument arrays.

  The grid has two points; at point `t` every window's block is rows `2048·t … 2048·t + 2047` of its array, all
  columns. So row `p` of each input block at `t` is row `2048·t + p` of the argument, what point `t` writes back
  (`result` of the three input blocks, by the block lemma) is rows `2048·t …` of `result` of the arguments, and the two
  output blocks cover the array: row `r` lies in the block of point `r / 2048`.
-/
import proofs.«126249_g10926396801967_feedfinal_217_13_alg».proof.Proof.KernelBlock

noncomputable section

namespace Cert.KernelIdeal.Hand

open Cert.KernelIdeal Cert.KernelIdeal.Gen
open Idealize.ShloMosaic Idealize.ShloMosaic.TcCoe Idealize.SL.Sem Idealize.ShloMosaic.ValueIdx Cert.PairwiseMax
open Idealize.ShloMosaic.Pipeline (Dat)

variable (m : (ℓ : Loc nD τ sig) → Buf (Elt Ideal) ℓ) (ρ : Dev nD → PrngReg)

/-- The printed index maps over the grid: at point `t` every window is at block row `t`, block column 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem row_lt (t : Fin cfg0.N) (p : Fin 2048) : 2048 * t.val + p.val < 4096 := by
  have ht : t.val < 2 := lt_of_lt_of_eq t.isLt N_0
  have := p.isLt
  omega

/-- The array row that row `p` of a block at point `t` is. -/
def rowOf (t : Fin cfg0.N) (p : Fin 2048) : Fin 4096 := ⟨2048 * t.val + p.val, row_lt t p⟩

/-- Row `p` of the first input block at point `t` is row `2048·t + p` of the first argument. -/
theorem iblk0_apply (c : Dev nD) (t : Fin cfg0.N) (p : Fin 2048) (k : Fin 256) :
    (iblk m c 0 t : Vec Ideal S2048x256 .f32) (ix2 p k)
      = (m ((c : Thread nD τ).loc main_arg0) : S4096x256.Idx → EReal) (ix2 (rowOf t p) k) := by
  obtain ⟨e0, e1, -⟩ := idx_facts t
  unfold iblk
  rw [View.read_apply]
  show V m c main_arg0 _ = m (c.tc.loc main_arg0) _
  unfold V
  congr 1
  funext a
  apply Fin.ext
  match a with
  | ⟨0, _⟩ => show win0_0.index t 0 * 2048 + 1 * p.val = 2048 * t.val + p.val; rw [e0]; omega
  | ⟨1, _⟩ => show win0_0.index t 1 * 256 + 1 * k.val = k.val; rw [e1]; omega

/-- Row `p` of the second input block at point `t` is row `2048·t + p` of the second argument. -/
theorem iblk1_apply (c : Dev nD) (t : Fin cfg0.N) (p : Fin 2048) (k : Fin 256) :
    (iblk m c 1 t : Vec Ideal S2048x256 .f32) (ix2 p k)
      = (m ((c : Thread nD τ).loc main_arg1) : S4096x256.Idx → EReal) (ix2 (rowOf t p) k) := by
  obtain ⟨-, -, e0, e1, -⟩ := idx_facts t
  unfold iblk
  rw [View.read_apply]
  show V m c main_arg1 _ = m (c.tc.loc main_arg1) _
  unfold V
  congr 1
  funext a
  apply Fin.ext
  match a with
  | ⟨0, _⟩ => show win0_1.index t 0 * 2048 + 1 * p.val = 2048 * t.val + p.val; rw [e0]; omega
  | ⟨1, _⟩ => show win0_1.index t 1 * 256 + 1 * k.val = k.val; rw [e1]; omega

/-- Row `p` of the third input block at point `t` is row `2048·t + p` of the third argument. -/
theorem iblk2_apply (c : Dev nD) (t : Fin cfg0.N) (p : Fin 2048) (k : Fin 128) :
    (iblk m c 2 t : Vec Ideal S2048x128 .f32) (ix2 p k)
      = (m ((c : Thread nD τ).loc main_arg2) : S4096x128.Idx → EReal) (ix2 (rowOf t p) k) := by
  obtain ⟨-, -, -, -, e0, e1, -⟩ := idx_facts t
  unfold iblk
  rw [View.read_apply]
  show V m c main_arg2 _ = m (c.tc.loc main_arg2) _
  unfold V
  congr 1
  funext a
  apply Fin.ext
  match a with
  | ⟨0, _⟩ => show win0_2.index t 0 * 2048 + 1 * p.val = 2048 * t.val + p.val; rw [e0]; omega
  | ⟨1, _⟩ => show win0_2.index t 1 * 128 + 1 * k.val = k.val; rw [e1]; omega

/-- The result array: `result` of the three arguments as launched. -/
abbrev whole (c : Dev nD) : Buf (Elt Ideal) ((c : Thread nD τ).loc main_v0) :=
  result (n := 4096) (m ((c : Thread nD τ).loc main_arg0)) (m ((c : Thread nD τ).loc main_arg1)) (m ((c : Thread nD τ).loc main_arg2))

/-- WHAT POINT `t` WRITES BACK is block `t` of `result` of the arguments. -/
theorem flushed_eq (c : Dev nD) (t : Fin cfg0.N) :
    (dats m 0 c).flushed 3 t = ((cfg0.win 3).blk t).view.read (Elt Ideal) (whole m c) := by
  refine (Cert.KernelIdeal.Value.flushed3_A m c t).trans ?_
  refine (congrArg ((cfg0.win 3).cut (grid0.coords t)) (out_eq c (grid0.coords t) (ms0_0 t) (hs0_0 t) (ms0_1 t) (hs0_1 t)
    (ms0_2 t) (hs0_2 t) (ms0_3 t) (hs0_3 t) (iblk m c 0 t) (iblk m c 1 t) (iblk m c 2 t))).trans ?_
  refine funext fun (y : S2048x384.Idx) => ?_
  obtain ⟨p, q, rfl⟩ : ∃ (p : Fin 2048) (q : Fin 384), y = ix2 p q := ⟨y 0, y 1, eq_ix2 y⟩
  show result (n := 2048) (iblk m c 0 t) (iblk m c 1 t) (iblk m c 2 t) (ix2 p q)
    = whole m c (((cfg0.win 3).blk t).view.emb (ix2 p q))
  obtain ⟨-, -, -, -, -, -, e0, e1⟩ := idx_facts t
  have ee : ((cfg0.win 3).blk t).view.emb (ix2 p q) = ix2 (rowOf t p) q := by
    funext a
    apply Fin.ext
    match a with
    | ⟨0, _⟩ => show win0_3.index t 0 * 2048 + 1 * p.val = 2048 * t.val + p.val; rw [e0]; omega
    | ⟨1, _⟩ => show win0_3.index t 1 * 384 + 1 * q.val = q.val; rw [e1]; omega
  rw [ee]
  exact result_rows _ _ _ (iblk m c 0 t) (iblk m c 1 t) (iblk m c 2 t) p (rowOf t p)
    (iblk0_apply m c t p) (iblk1_apply m c t p) (iblk2_apply m c t p) q

/-- The two output blocks cover the array: row `r` lies in the block of point `r / 2048`. -/
theorem cover (i : S4096x384.Idx) :
    ∃ t : Fin cfg0.N, (cfg0.win 3).flush t = true ∧ i ∈ ((cfg0.win 3).blk t).view.set := by
  have hi0 : (i 0).val < 4096 := (i 0).isLt
  have hi1 : (i 1).val < 384 := (i 1).isLt
  have hN : grid0.N = 2 := N_0
  have hlt : (i 0).val / 2048 < cfg0.N := by show (i 0).val / 2048 < grid0.N; rw [hN]; omega
  obtain ⟨-, -, -, -, -, -, e0, e1⟩ := idx_facts ⟨(i 0).val / 2048, hlt⟩
  refine ⟨⟨(i 0).val / 2048, hlt⟩, flush0_3 _, ?_⟩
  show i ∈ ((View.whole main_v0).slice (win0_3.rect ⟨(i 0).val / 2048, hlt⟩)).set
  rw [View.set_slice_whole, Rect.mem_set_unit]
  intro a
  match a with
  | ⟨0, _⟩ =>
    show win0_3.index ⟨(i 0).val / 2048, hlt⟩ 0 * 2048 ≤ (i 0).val ∧ (i 0).val < win0_3.index ⟨(i 0).val / 2048, hlt⟩ 0 * 2048 + 2048
    rw [e0]; show (i 0).val / 2048 * 2048 ≤ (i 0).val ∧ (i 0).val < (i 0).val / 2048 * 2048 + 2048; omega
  | ⟨1, _⟩ =>
    show win0_3.index ⟨(i 0).val / 2048, hlt⟩ 1 * 384 ≤ (i 1).val ∧ (i 1).val < win0_3.index ⟨(i 0).val / 2048, hlt⟩ 1 * 384 + 384
    rw [e1]; omega

/-- THE ARRAY after the run is `result` of the arguments. -/
theorem final (c : Dev nD) : (dats m 0 c).arrAt 3 cfg0.N = whole m c :=
  (dats m 0 c).arrAt_eq_of_cover 3 (whole m c) (fun t _ => flushed_eq m c t) cover

/-- The run, read: the result array at `result` of the arguments, the arguments unchanged. -/
theorem run : θ_run defs (onTc (τ := τ) (main (F := Ideal))) ⟨m, fun _ => 0, ρ⟩ fun r => ∀ c : Dev nD,
      r.2.mem ((c : Thread nD τ).loc main_v0) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.Hand

end
-- ==== Proof.lean ====
/-
  The pairwise maximum kernel against its reference, over the extended reals.

  Both programs produce a [4096, 384] array whose row `r` is, on the first 256 columns, the largest over `j` of
  `x0[r, c] · x1[r, j]`, and behind them row `r` of `x2`. The kernel takes that largest product as the larger of
  `x0[r, c] · max_j x1[r, j]` and `x0[r, c] · min_j x1[r, j]`; the reference chooses between the two products by the sign
  of `x0[r, c]`. They agree because `min_j x1[r, j] ≤ max_j x1[r, j]` and multiplication by a nonnegative extended real
  keeps that order while multiplication by a negative one reverses it (Proof/RowExtremes.lean); no finiteness is
  needed, so the precondition is never opened.

  The pieces: the reference's result term read at an index is `result` (Proof/RefIsResult.lean); the kernel's body
  leaves `result` of its input blocks in its output block (Proof/KernelBlock.lean); the two grid points' blocks are the
  two halves of the rows, so the array after the run is `result` of the arguments (Proof/KernelArray.lean). The three
  frames are the two generated kernel frames and the reference's generated run with its result dropped; the ideal
  pass rewrote nothing, so `preserves` is `True`.
-/
import proofs.«126249_g10926396801967_feedfinal_217_13_alg».proof.Defs
import proofs.«126249_g10926396801967_feedfinal_217_13_alg».proof.Proof.Gen.Kernel
import proofs.«126249_g10926396801967_feedfinal_217_13_alg».proof.Proof.Gen.Kernel.Frame
import proofs.«126249_g10926396801967_feedfinal_217_13_alg».proof.Proof.Gen.KernelIdeal
import proofs.«126249_g10926396801967_feedfinal_217_13_alg».proof.Proof.Gen.KernelIdeal.Frame
import proofs.«126249_g10926396801967_feedfinal_217_13_alg».proof.Proof.Gen.ReferenceIdeal
import proofs.«126249_g10926396801967_feedfinal_217_13_alg».proof.Proof.Gen.Pre_finite_inputs
import proofs.«126249_g10926396801967_feedfinal_217_13_alg».proof.Proof.Imports
import proofs.«126249_g10926396801967_feedfinal_217_13_alg».proof.Proof.RefIsResult
import proofs.«126249_g10926396801967_feedfinal_217_13_alg».proof.Proof.KernelArray
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From arguments that agree, the kernel's result array ends at `result` of them (the kernel's run, read) and the
    reference's at its operations' term of them (its generated run), which read at an index is `result` too. -/
theorem algebraic : Cert.algebraic_KernelIdeal_ReferenceIdeal := by
  intro m ρ m' ρ' _ hagree
  refine ⟨fun c => Cert.KernelIdeal.Hand.whole m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.ref_eq_result,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
